-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : FVec F S100000x128 .f32) (main_arg2 : FVec F S3200000 .f32) (main_arg3 : IVec S3200000 32) (main_arg4 : IVec S3200000 32) (main_arg5 : FVec F S128x64 .f32) (main_arg6 : FVec F S64 .f32) (main_arg7 : FVec F S64x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S3200000x1 : Shape := ⟨2, ![3200000, 1]⟩
abbrev S_ : Shape := ⟨0, ![]⟩
abbrev S3200000x64 : Shape := ⟨2, ![3200000, 64]⟩
abbrev S100000x32 : Shape := ⟨2, ![100000, 32]⟩
abbrev S5000x32 : Shape := ⟨2, ![5000, 32]⟩
abbrev S1x32 : Shape := ⟨2, ![1, 32]⟩
abbrev S3200000x32 : Shape := ⟨2, ![3200000, 32]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S100000x32, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x32, .f32⟩
  | .hbm, ⟨37, _⟩ => ⟨S3200000x32, .f32⟩
  | .hbm, ⟨38, _⟩ => ⟨S3200000x32, .f32⟩
  | .hbm, ⟨39, _⟩ => ⟨S_, .f32⟩
  | .hbm, ⟨40, _⟩ => ⟨S100000x32, .f32⟩
  | .hbm, ⟨41, _⟩ => ⟨S3200000x1, .i32⟩
  | .hbm, ⟨42, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x32, .f32⟩
  | .local _ .vmem, ⟨11, _⟩ => ⟨S32, .f32⟩
  | .local _ .vmem, ⟨12, _⟩ => ⟨S5000x32, .f32⟩
  | .local _ .vmem, ⟨13, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  natLt_1_32 : 1 < 32
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S100000x64 : Shape := ⟨2, ![100000, 64]⟩
abbrev S1x64 : Shape := ⟨2, ![1, 64]⟩
abbrev S3200000x1 : Shape := ⟨2, ![3200000, 1]⟩
abbrev S3200000x64 : Shape := ⟨2, ![3200000, 64]⟩
abbrev S100000x32 : Shape := ⟨2, ![100000, 32]⟩
abbrev S1x32 : Shape := ⟨2, ![1, 32]⟩
abbrev S3200000x32 : Shape := ⟨2, ![3200000, 32]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S128x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S_, .f32⟩
  | .hbm, ⟨10, _⟩ => ⟨S100000x128, .f32⟩
  | .hbm, ⟨11, _⟩ => ⟨S100000x128, .i1⟩
  | .hbm, ⟨12, _⟩ => ⟨S100000x128, .f32⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S3200000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x64, .f32⟩
  | .hbm, ⟨31, _⟩ => ⟨S3200000x64, .f32⟩
  | .hbm, ⟨32, _⟩ => ⟨S3200000x64, .f32⟩
  | .hbm, ⟨33, _⟩ => ⟨S_, .f32⟩
  | .hbm, ⟨34, _⟩ => ⟨S100000x64, .f32⟩
  | .hbm, ⟨35, _⟩ => ⟨S3200000x1, .i32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S3200000x1, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x32, .f32⟩
  | .hbm, ⟨54, _⟩ => ⟨S3200000x32, .f32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.LibEdgeSum.lean ====
/-
  The sparse-matrix product the host computes between and after the dense layers.

  For a graph given as a list of E edges — a weight `val e`, a destination `row e` and a source `col e` each — and a
  node feature array h, the host gathers the source rows h[col e] (a negative index first wrapped by adding the node
  count), scales row e by val e, and adds the scaled rows into a zero array at the destinations:
      out[n] = ∑ over edges e with row e = n of  val e · h[col e].
  Both programs apply this same line of operations; it is named here once, as one function of (val, row, col, h), and
  is never opened: two applications to equal arrays are equal.
-/
import Idealize.ShloMosaic.PureOps.Ideal
import Idealize.ShloMosaic.Lib.ValueIdx

noncomputable section

namespace Cert.Gcn

open Idealize.ShloMosaic

/-- The host's edge sum: gather the source rows, scale by the edge weights, scatter-add at the destinations. -/
def edgeSum {N E C : ℕ} (nodes : BitVec 32)
    (sd : ScatterDims ⟨2, ![N, C]⟩ ⟨2, ![E, 1]⟩ ⟨2, ![E, C]⟩) (gd : GatherDims ⟨2, ![N, C]⟩ ⟨2, ![E, 1]⟩ ⟨2, ![E, C]⟩)
    (hz : (⟨0, ![]⟩ : Shape).BroadcastsInDim ⟨2, ![N, C]⟩ (![] : Fin 0 → Fin 2))
    (hzE : (⟨0, ![]⟩ : Shape).BroadcastsInDim ⟨1, ![E]⟩ (![] : Fin 0 → Fin 1))
    (hcol : (⟨1, ![E]⟩ : Shape).BroadcastsInDim ⟨2, ![E, 1]⟩ (![0] : Fin 1 → Fin 2))
    (hrep : (⟨2, ![E, 1]⟩ : Shape).BroadcastsInDim ⟨2, ![E, C]⟩ (![0, 1] : Fin 2 → Fin 2))
    (val : FVec Ideal ⟨1, ![E]⟩ .f32) (row col : IVec ⟨1, ![E]⟩ 32) (h : FVec Ideal ⟨2, ![N, C]⟩ .f32) :
    FVec Ideal ⟨2, ![N, C]⟩ .f32 :=
  Host.scatterAdd sd (broadcastInDim ⟨2, ![N, C]⟩ ![] hz (constant (F := Ideal) ⟨0, ![]⟩ .f32 0x00000000#32))
    (broadcastInDim ⟨2, ![E, 1]⟩ ![0] hcol row)
    (mulf (broadcastInDim ⟨2, ![E, C]⟩ ![0, 1] hrep (broadcastInDim ⟨2, ![E, 1]⟩ ![0] hcol val))
      (Host.gather gd h (broadcastInDim ⟨2, ![E, 1]⟩ ![0] hcol
        (select (cmpi .slt col (broadcastInDim ⟨1, ![E]⟩ ![] hzE (constantI ⟨0, ![]⟩ 32 0#32)))
          (addi col (broadcastInDim ⟨1, ![E]⟩ ![] hzE (constantI ⟨0, ![]⟩ 32 nodes))) col))))

end Cert.Gcn

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«116018_j24550033064030_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibPallasLinear.lean ====
/-
  A dense layer x W + b computed by a tile's body and by host operations, at the ideal instance.

  The body casts its block of x to a narrower format (the identity here), multiplies it into a zero accumulator by the
  weight block, and adds the bias, which it first views as a 1 x N row and repeats down the rows. The host contracts x
  with W and adds the bias broadcast in two steps. Entry (p, q) of either is  ∑ k, x (p, k) · W (k, q)  +  b q,
  whatever the formats of the operands: `affine`. So the two are one array.
-/
import proofs.«116018_j24550033064030_1_alg».proof.Proof.LibRank2

namespace Cert.PallasLinear

open Idealize.ShloMosaic Idealize.ShloMosaic.ValueIdx

/-- Entry (p, q) of x W + b. -/
noncomputable def affine {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

theorem affine_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = (∑ k : Fin K, x (ix2 p k) * w (ix2 k q)) + b (ix1 q) := rfl

/-- The tile body's value at an entry. -/
theorem body_apply {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (hlt : FTy.bf16.bits < FTy.f32.bits)
    (hc1 : (⟨2, ![K, N]⟩ : Shape).ShapeCasts ⟨2, ![K, N]⟩) (hc2 : (⟨1, ![N]⟩ : Shape).ShapeCasts ⟨1, ![N]⟩)
    (hc3 : (⟨1, ![N]⟩ : Shape).ShapeCasts ⟨2, ![1, N]⟩) (hb : (⟨2, ![1, N]⟩ : Shape).Broadcasts ⟨2, ![M, N]⟩)
    (p : Fin M) (q : Fin N) :
    addf (matmul (Cert.MatmulAt.plainDims wf) none (truncf .bf16 x hlt) (shapeCast ⟨2, ![K, N]⟩ w hc1)
          (constant (F := Ideal) ⟨2, ![M, N]⟩ .f32 0x00000000#32))
        (broadcastTo ⟨2, ![M, N]⟩ (shapeCast ⟨2, ![1, N]⟩ (shapeCast ⟨1, ![N]⟩ b hc2) hc3) hb) (ix2 p q)
      = affine x w b (ix2 p q) := by
  rw [affine_apply]
  show matmul _ _ _ _ _ (ix2 p q) + broadcastTo _ _ _ (ix2 p q) = _
  rw [Cert.MatmulAt.matmul_zero_plain_apply wf none _ _ p q, shapeCast_self, shapeCast_self]
  congr 1
  refine (broadcastTo_apply _ hb (ix2 p q) (ix2 (0 : Fin 1) q) fun a => ?_).trans (shapeCast_a_1a_apply b hc3 0 q)
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- The host's dense layer at an entry. -/
theorem host_apply {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) (p : Fin M) (q : Fin N) :
    addf (Host.dotGeneral (Cert.MatmulAt.plainDims wf) none x w)
        (broadcastInDim ⟨2, ![M, N]⟩ ![0, 1] h₂ (broadcastInDim ⟨2, ![1, N]⟩ ![1] h₁ b)) (ix2 p q)
      = affine x w b (ix2 p q) := by
  rw [affine_apply]
  show Host.dotGeneral _ _ _ _ (ix2 p q) + broadcastInDim _ _ _ _ (ix2 p q) = _
  rw [Cert.Rank2.dotGeneral_plain_apply wf none x w p q, Cert.Rank2.rowBias_apply b h₁ h₂ p q]

/-- The host's dense layer is the array `affine`. -/
theorem host_eq {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) :
    addf (Host.dotGeneral (Cert.MatmulAt.plainDims wf) none x w)
        (broadcastInDim ⟨2, ![M, N]⟩ ![0, 1] h₂ (broadcastInDim ⟨2, ![1, N]⟩ ![1] h₁ b))
      = affine x w b := by
  funext j
  obtain ⟨p, q, rfl⟩ : ∃ (p : Fin M) (q : Fin N), j = ix2 p q := ⟨j 0, j 1, eq_ix2 j⟩
  exact host_apply wf x w b h₁ h₂ p q

end Cert.PallasLinear
-- ==== Proof.LibAffineRows.lean ====
/-
  A dense layer x W + b depends, row by row, on the same row of x.

  Entry (p, q) of `Cert.PallasLinear.affine x w b` is  ∑ k, x (p, k) · w (k, q)  +  b q : it reads row p of x and
  nothing else of x. So two inputs — of possibly different heights, such as a whole array and one row block of it — that
  agree along row p of one and row p' of the other give equal entries (p, q) and (p', q) (`affine_row`); the same with
  the two entries given as arbitrary indices whose column coordinates agree (`affine_congr`). This is what lets a
  row-tiled region's blocks be read as the blocks of the whole-array layer.
-/
import proofs.«116018_j24550033064030_1_alg».proof.Proof.LibPallasLinear

noncomputable section

namespace Cert.PallasLinear

open Idealize.ShloMosaic Idealize.ShloMosaic.ValueIdx

/-- Entry (p, q) of x W + b reads row p of x only: two inputs that agree on that row, at row p of one and row p' of
    the other, give the same entry. -/
theorem affine_row {M M' K N : ℕ} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal) (p : Fin M) (p' : Fin M') (q : Fin N)
    (hx : ∀ k : Fin K, x (ix2 p k) = x' (ix2 p' k)) :
    affine x w b (ix2 p q) = affine x' w b (ix2 p' q) := by
  rw [affine_apply, affine_apply]
  congr 1
  exact Finset.sum_congr rfl fun k _ => by rw [hx k]

/-- The same at any two indices: equal column coordinates, and inputs that agree along the two rows. -/
theorem affine_congr {M M' K N : ℕ} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal)
    (i : (⟨2, ![M, N]⟩ : Shape).Idx) (i' : (⟨2, ![M', N]⟩ : Shape).Idx) (hq : (i 1).val = (i' 1).val)
    (hx : ∀ (p : Fin M) (p' : Fin M'), p.val = (i 0).val → p'.val = (i' 0).val → ∀ k : Fin K, x (ix2 p k) = x' (ix2 p' k)) :
    affine x w b i = affine x' w b i' := by
  obtain ⟨p, q, rfl⟩ : ∃ (p : Fin M) (q : Fin N), i = ix2 p q := ⟨i 0, i 1, eq_ix2 i⟩
  obtain ⟨p', q', rfl⟩ : ∃ (p' : Fin M') (q' : Fin N), i' = ix2 p' q' := ⟨i' 0, i' 1, eq_ix2 i'⟩
  have e : q = q' := Fin.ext hq
  subst e
  exact affine_row x x' w b p p' q (hx p p' rfl rfl)

end Cert.PallasLinear

end
-- ==== Proof.DenseLayers.lean ====
/-
  The two dense layers of the network, as whole-array functions on the extended reals.

  Layer one drops inputs at rate one half and rescales: entry (p, k) of the input is multiplied by 2 where the
  uniform draw u (p, k) is at least 1/2 and by 0 elsewhere (`dropFactor`), then the rows go through x W + b.
  Layer two clips its input below at 0 and applies x W + b. Both are stated with `Cert.PallasLinear.affine`:
  entry (p, q) of x W + b is  ∑ k, x (p, k) · W (k, q)  +  b q.

  Each layer is met in two spellings: a tile body (compare, widen the bit, convert, scale; round the operands to a
  narrower format, which changes nothing here; multiply into a zero accumulator; add the bias viewed as a row) and a
  line of host operations (compare, convert the bit, scale; contract; add the bias broadcast in two steps). Both
  spellings of each layer are the array above.
-/
import proofs.«116018_j24550033064030_1_alg».proof.Proof.LibAffineRows

noncomputable section

namespace Cert.Gcn

open Idealize.ShloMosaic Idealize.ShloMosaic.ValueIdx Cert.PallasLinear

/-- The factor inverted dropout at rate 1/2 puts on an entry whose uniform draw is `u`: 2 when u ≥ 1/2, else 0
    (the comparison's bit read as a number, times 2). -/
def dropFactor (u : EReal) : EReal :=
  FloatOps.mulf (F := Ideal) (φ := .f32)
    (FloatOps.uitofp (F := Ideal) .f32 (FloatOps.cmpf (F := Ideal) (φ := .f32) .oge u (FloatOps.ofBits (F := Ideal) .f32 0x3F000000#32)))
    (FloatOps.ofBits (F := Ideal) .f32 0x40000000#32)

/-- The input after dropout: each entry times its factor. -/
def masked {s : Shape} (x u : s.Idx → EReal) : s.Idx → EReal := fun i => x i * dropFactor (u i)

/-- Clipping below at zero, entry by entry. -/
def clip0 {s : Shape} (h : s.Idx → EReal) : s.Idx → EReal :=
  fun i => max (h i) (FloatOps.ofBits (F := Ideal) .f32 0x00000000#32)

/-- A one-bit word widened to 32 bits and read as a signed number is the bit read as an unsigned number. -/
theorem sitofp_widen_bit (c : BitVec 1) :
    FloatOps.sitofp (F := Ideal) .f32 (c.setWidth 32) = FloatOps.uitofp (F := Ideal) .f32 c := by
  rcases BitVec.eq_zero_or_eq_one c with h | h <;> subst h <;> rfl

/-! ## Layer one -/

/-- The tile body of layer one is x W + b of the dropped block. -/
theorem dropBody_eq {M K N : ℕ}
    (wf : DotDims.WF ⟨2, ![M, K]⟩ ⟨2, ![K, N]⟩ ⟨2, ![M, N]⟩ [1] [0] [0] [1] [] [])
    (u x : FVec Ideal ⟨2, ![M, K]⟩ .f32) (w : FVec Ideal ⟨2, ![K, N]⟩ .f32) (b : FVec Ideal ⟨1, ![N]⟩ .f32)
    (hlt : FTy.bf16.bits < FTy.f32.bits) (h32 : 1 < 32)
    (hc : (⟨1, ![N]⟩ : Shape).ShapeCasts ⟨2, ![1, N]⟩) (hb : (⟨2, ![1, N]⟩ : Shape).Broadcasts ⟨2, ![M, N]⟩) :
    addf (matmul (Cert.MatmulAt.plainDims wf) none
            (truncf .bf16 (mulf x (mulf (sitofp .f32 (extui 32 (cmpf .oge u (broadcast ⟨2, ![M, K]⟩ (Scalar.ofBits (F := Ideal) .f32 0x3F000000#32))) h32))
              (broadcast ⟨2, ![M, K]⟩ (Scalar.ofBits (F := Ideal) .f32 0x40000000#32)))) hlt)
            (truncf .bf16 w hlt) (constant (F := Ideal) ⟨2, ![M, N]⟩ .f32 0x00000000#32))
        (broadcastTo ⟨2, ![M, N]⟩ (shapeCast ⟨2, ![1, N]⟩ b hc) hb)
      = affine (masked x u) w b := by
  funext j
  obtain ⟨p, q, rfl⟩ : ∃ (p : Fin M) (q : Fin N), j = ix2 p q := ⟨j 0, j 1, eq_ix2 j⟩
  rw [affine_apply]
  show matmul _ _ _ _ _ (ix2 p q) + broadcastTo _ _ _ (ix2 p q) = _
  rw [Cert.MatmulAt.matmul_zero_plain_apply wf none _ _ p q]
  congr 1
  · refine Finset.sum_congr rfl fun k _ => ?_
    show x (ix2 p k) * (FloatOps.sitofp (F := Ideal) .f32 ((FloatOps.cmpf (F := Ideal) (φ := .f32) .oge (u (ix2 p k)) (FloatOps.ofBits (F := Ideal) .f32 0x3F000000#32)).setWidth 32)
        * FloatOps.ofBits (F := Ideal) .f32 0x40000000#32) * w (ix2 k q) = _
    rw [sitofp_widen_bit]
    rfl
  · refine (broadcastTo_apply _ hb (ix2 p q) (ix2 (0 : Fin 1) q) fun a => ?_).trans (shapeCast_a_1a_apply b hc 0 q)
    match a with
    | ⟨0, _⟩ => show (0 : ℕ) = if (1 : ℕ) = 1 then 0 else _; rw [if_pos rfl]
    | ⟨1, _⟩ =>
      show q.val = if N = 1 then 0 else q.val
      split
      · have := q.isLt; omega
      · rfl

/-- The host's layer one is the same array. -/
theorem dropHost_eq {M K N : ℕ}
    (wf : DotDims.WF ⟨2, ![M, K]⟩ ⟨2, ![K, N]⟩ ⟨2, ![M, N]⟩ [1] [0] [0] [1] [] [])
    (u x : FVec Ideal ⟨2, ![M, K]⟩ .f32) (w : FVec Ideal ⟨2, ![K, N]⟩ .f32) (b : FVec Ideal ⟨1, ![N]⟩ .f32)
    (h₀ : (⟨0, ![]⟩ : Shape).BroadcastsInDim ⟨2, ![M, K]⟩ (![] : Fin 0 → Fin 2))
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) :
    addf (Host.dotGeneral (Cert.MatmulAt.plainDims wf) none
            (mulf x (mulf (uitofp .f32 (cmpf .oge u (broadcastInDim ⟨2, ![M, K]⟩ ![] h₀ (constant (F := Ideal) ⟨0, ![]⟩ .f32 0x3F000000#32))))
              (broadcastInDim ⟨2, ![M, K]⟩ ![] h₀ (constant (F := Ideal) ⟨0, ![]⟩ .f32 0x40000000#32)))) w)
        (broadcastInDim ⟨2, ![M, N]⟩ ![0, 1] h₂ (broadcastInDim ⟨2, ![1, N]⟩ ![1] h₁ b))
      = affine (masked x u) w b :=
  host_eq wf _ w b h₁ h₂

/-! ## Layer two -/

/-- The tile body of layer two is x W + b of the clipped block. -/
theorem clipBody_eq {M K N : ℕ}
    (wf : DotDims.WF ⟨2, ![M, K]⟩ ⟨2, ![K, N]⟩ ⟨2, ![M, N]⟩ [1] [0] [0] [1] [] [])
    (h : FVec Ideal ⟨2, ![M, K]⟩ .f32) (w : FVec Ideal ⟨2, ![K, N]⟩ .f32) (b : FVec Ideal ⟨1, ![N]⟩ .f32)
    (hlt : FTy.bf16.bits < FTy.f32.bits) (hs : (⟨2, ![M, K]⟩ : Shape).ShapeCasts ⟨2, ![M, K]⟩)
    (hc : (⟨1, ![N]⟩ : Shape).ShapeCasts ⟨2, ![1, N]⟩) (hb : (⟨2, ![1, N]⟩ : Shape).Broadcasts ⟨2, ![M, N]⟩) :
    addf (matmul (Cert.MatmulAt.plainDims wf) none
            (truncf .bf16 (maximumf (shapeCast ⟨2, ![M, K]⟩ h hs) (broadcast ⟨2, ![M, K]⟩ (Scalar.ofBits (F := Ideal) .f32 0x00000000#32))) hlt)
            (truncf .bf16 w hlt) (constant (F := Ideal) ⟨2, ![M, N]⟩ .f32 0x00000000#32))
        (broadcastTo ⟨2, ![M, N]⟩ (shapeCast ⟨2, ![1, N]⟩ b hc) hb)
      = affine (clip0 h) w b := by
  funext j
  obtain ⟨p, q, rfl⟩ : ∃ (p : Fin M) (q : Fin N), j = ix2 p q := ⟨j 0, j 1, eq_ix2 j⟩
  rw [affine_apply, shapeCast_self]
  show matmul _ _ _ _ _ (ix2 p q) + broadcastTo _ _ _ (ix2 p q) = _
  rw [Cert.MatmulAt.matmul_zero_plain_apply wf none _ _ p q]
  congr 1
  refine (broadcastTo_apply _ hb (ix2 p q) (ix2 (0 : Fin 1) q) fun a => ?_).trans (shapeCast_a_1a_apply b hc 0 q)
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- The host's layer two is the same array. -/
theorem clipHost_eq {M K N : ℕ}
    (wf : DotDims.WF ⟨2, ![M, K]⟩ ⟨2, ![K, N]⟩ ⟨2, ![M, N]⟩ [1] [0] [0] [1] [] [])
    (h : FVec Ideal ⟨2, ![M, K]⟩ .f32) (w : FVec Ideal ⟨2, ![K, N]⟩ .f32) (b : FVec Ideal ⟨1, ![N]⟩ .f32)
    (h₀ : (⟨0, ![]⟩ : Shape).BroadcastsInDim ⟨2, ![M, K]⟩ (![] : Fin 0 → Fin 2))
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) :
    addf (Host.dotGeneral (Cert.MatmulAt.plainDims wf) none
            (maximumf h (broadcastInDim ⟨2, ![M, K]⟩ ![] h₀ (constant (F := Ideal) ⟨0, ![]⟩ .f32 0x00000000#32))) w)
        (broadcastInDim ⟨2, ![M, N]⟩ ![0, 1] h₂ (broadcastInDim ⟨2, ![1, N]⟩ ![1] h₁ b))
      = affine (clip0 h) w b :=
  host_eq wf _ w b h₁ h₂

end Cert.Gcn

end
-- ==== Proof.Network.lean ====
/-
  The whole network as one function of its nine arguments, on the extended reals:

      out = A · layer₂ (A · layer₁ (x, u))

  where layer₁ (x, u) = (x dropped by u) W₀ + b₀, layer₂ h = max (h, 0) W₁ + b₁, and A · h is the edge sum
  out[n] = ∑ over edges e with row e = n of val e · h[col e]  (`edgeSum`). The sizes are the program's: 100000
  nodes, 3200000 edges, feature widths 128 → 64 → 32.
-/
import proofs.«116018_j24550033064030_1_alg».proof.Proof.LibEdgeSum
import proofs.«116018_j24550033064030_1_alg».proof.Proof.DenseLayers

noncomputable section

namespace Cert.Gcn

open Idealize.ShloMosaic Cert.PallasLinear

/-- Two rounds of "dense layer, then sum over incoming edges". The shape records and side conditions of the edge
    sums are parameters: each program supplies its own, and any two choices give the same function. -/
def network
    (sd64 : ScatterDims ⟨2, ![100000, 64]⟩ ⟨2, ![3200000, 1]⟩ ⟨2, ![3200000, 64]⟩)
    (gd64 : GatherDims ⟨2, ![100000, 64]⟩ ⟨2, ![3200000, 1]⟩ ⟨2, ![3200000, 64]⟩)
    (sd32 : ScatterDims ⟨2, ![100000, 32]⟩ ⟨2, ![3200000, 1]⟩ ⟨2, ![3200000, 32]⟩)
    (gd32 : GatherDims ⟨2, ![100000, 32]⟩ ⟨2, ![3200000, 1]⟩ ⟨2, ![3200000, 32]⟩)
    (hz64 : (⟨0, ![]⟩ : Shape).BroadcastsInDim ⟨2, ![100000, 64]⟩ (![] : Fin 0 → Fin 2))
    (hz32 : (⟨0, ![]⟩ : Shape).BroadcastsInDim ⟨2, ![100000, 32]⟩ (![] : Fin 0 → Fin 2))
    (hzE : (⟨0, ![]⟩ : Shape).BroadcastsInDim ⟨1, ![3200000]⟩ (![] : Fin 0 → Fin 1))
    (hcol : (⟨1, ![3200000]⟩ : Shape).BroadcastsInDim ⟨2, ![3200000, 1]⟩ (![0] : Fin 1 → Fin 2))
    (hrep64 : (⟨2, ![3200000, 1]⟩ : Shape).BroadcastsInDim ⟨2, ![3200000, 64]⟩ (![0, 1] : Fin 2 → Fin 2))
    (hrep32 : (⟨2, ![3200000, 1]⟩ : Shape).BroadcastsInDim ⟨2, ![3200000, 32]⟩ (![0, 1] : Fin 2 → Fin 2))
    (x u : FVec Ideal ⟨2, ![100000, 128]⟩ .f32) (val : FVec Ideal ⟨1, ![3200000]⟩ .f32) (row col : IVec ⟨1, ![3200000]⟩ 32)
    (w0 : FVec Ideal ⟨2, ![128, 64]⟩ .f32) (b0 : FVec Ideal ⟨1, ![64]⟩ .f32)
    (w1 : FVec Ideal ⟨2, ![64, 32]⟩ .f32) (b1 : FVec Ideal ⟨1, ![32]⟩ .f32) : FVec Ideal ⟨2, ![100000, 32]⟩ .f32 :=
  edgeSum 100000#32 sd32 gd32 hz32 hzE hcol hrep32 val row col
    (affine (clip0 (edgeSum 100000#32 sd64 gd64 hz64 hzE hcol hrep64 val row col (affine (masked x u) w0 b0))) w1 b1)

end Cert.Gcn

end
-- ==== Proof.LayerOneRegion.lean ====
/-
  Layer one's region: what its output array holds after the run.

  The region tiles the 100000 rows into 20 blocks of 5000; at point t it reads rows 5000 t … 5000 t + 4999 of x and of
  the uniform draws u, all of W and b, and writes the same rows of the output. Its body's value on a block is the dense
  layer of the dropped block (`pay0_eq`), a layer's row reads the same row of its input only, and the 20 row blocks
  cover the array; so the output array is the dense layer of the whole dropped input, whatever contents the region is
  entered with.
-/
import proofs.«116018_j24550033064030_1_alg».proof.Proof.Gen.KernelIdeal.Frame
import proofs.«116018_j24550033064030_1_alg».proof.Proof.DenseLayers
import Idealize.ShloMosaic.Lib.Pipeline.Value

set_option maxRecDepth 16384

noncomputable section

namespace Cert.KernelIdeal.LayerOne

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn Cert.PallasLinear

variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a; rfl

/-- The body's stored value is the dense layer of its dropped block. -/
theorem pay0_eq (u x : Vec Ideal S5000x128 .f32) (w : Vec Ideal S128x64 .f32) (b : Vec Ideal S64 .f32) :
    k0_pay1 u x w b = affine (masked x u) w b := by
  unfold k0_pay1
  exact dropBody_eq Facts₀.dot_S5000x128_S128x64_S5000x64_1_0_0_1_n_n_wf u x w b _ _ _ _

/-- The printed index maps over the grid: the row blocks of x, u and the output move together; the weights and the
    bias stay at their one block. -/
theorem idx_facts0 : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) ≤ 19 ∧ win0_4.index t (1 : Fin 2) = 0 :=
  (by decide +kernel : ∀ t : Fin grid0.N, _)

/-- Every row block is some point's. -/
theorem idx_onto0 : ∀ q0 : Fin 20, ∃ t : Fin cfg0.N, win0_4.index t = ![q0.val, 0] :=
  (by decide +kernel : ∀ q0 : Fin 20, ∃ t : Fin grid0.N, win0_4.index t = ![q0.val, 0])

/-- Row p of x's block at point t is row (block index) · 5000 + p of x. -/
theorem xblk0_apply (c : Dev nD) (t : Fin cfg0.N) (p : Fin 5000) (k : Fin 128) (p' : Fin 100000)
    (hp : p'.val = win0_4.index t (0 : Fin 2) * 5000 + p.val) :
    iblk0 V c 0 t (ix2 p k) = V c main_arg0 (ix2 p' k) := by
  show V c main_arg0 (((cfg0.win 0).blk t).view.emb (ix2 p k)) = _
  refine congrArg (V c main_arg0) ?_
  obtain ⟨e0, e1, -⟩ := idx_facts0 t
  funext a; apply Fin.ext
  match a with
  | ⟨0, _⟩ => show win0_0.index t (0 : Fin 2) * 5000 + 1 * p.val = p'.val; omega
  | ⟨1, _⟩ => show win0_0.index t (1 : Fin 2) * 128 + 1 * k.val = k.val; omega

/-- The same for the uniform draws. -/
theorem ublk0_apply (c : Dev nD) (t : Fin cfg0.N) (p : Fin 5000) (k : Fin 128) (p' : Fin 100000)
    (hp : p'.val = win0_4.index t (0 : Fin 2) * 5000 + p.val) :
    iblk0 V c 1 t (ix2 p k) = V c main_arg1 (ix2 p' k) := by
  show V c main_arg1 (((cfg0.win 1).blk t).view.emb (ix2 p k)) = _
  refine congrArg (V c main_arg1) ?_
  obtain ⟨-, -, e2, e3, -⟩ := idx_facts0 t
  funext a; apply Fin.ext
  match a with
  | ⟨0, _⟩ => show win0_1.index t (0 : Fin 2) * 5000 + 1 * p.val = p'.val; omega
  | ⟨1, _⟩ => show win0_1.index t (1 : Fin 2) * 128 + 1 * k.val = k.val; omega

/-- The weights' block is the whole weight matrix, at every point. -/
theorem wblk0_eq (c : Dev nD) (t : Fin cfg0.N) : iblk0 V c 2 t = V c main_arg5 := by
  funext y
  show V c main_arg5 (((cfg0.win 2).blk t).view.emb y) = _
  refine congrArg (V c main_arg5) ?_
  obtain ⟨-, -, -, -, e4, e5, -⟩ := idx_facts0 t
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The bias block is the whole bias, at every point. -/
theorem bblk0_eq (c : Dev nD) (t : Fin cfg0.N) : iblk0 V c 3 t = V c main_arg6 := by
  funext y
  show V c main_arg6 (((cfg0.win 3).blk t).view.emb y) = _
  refine congrArg (V c main_arg6) ?_
  obtain ⟨-, -, -, -, -, -, e6, -⟩ := idx_facts0 t
  funext a; apply Fin.ext
  match a with
  | ⟨0, _⟩ => show win0_3.index t (0 : Fin 1) * 64 + 1 * (y 0).val = (y 0).val; omega

/-- What point t writes back is block t of the dense layer of the whole dropped input. -/
theorem flushed0_eq (c : Dev nD) (t : Fin cfg0.N) :
    (dat0 (F := Ideal) V c).flushed 4 t
      = ((cfg0.win 4).blk t).view.read (Elt Ideal) (affine (masked (V c main_arg0) (V c main_arg1)) (V c main_arg5) (V c main_arg6)) := by
  show (cfg0.win 4).cut (grid0.coords t) ((dat0 V c).after 4 t) = _
  rw [after0_4]
  unfold out0_4
  rw [View.canon_unit_zero off2_zero]
  simp only [View.ld_unit_zero (S := S5000x128) off2_zero, View.ld_unit_zero (S := S128x64) off2_zero, View.ld_unit_zero (S := S64) off1_zero]
  rw [pay0_eq, wblk0_eq, bblk0_eq]
  funext j
  show affine (masked (iblk0 V c 0 t) (iblk0 V c 1 t)) (V c main_arg5) (V c main_arg6) ((win0 4).xinj (grid0.coords t) j)
      = affine (masked (V c main_arg0) (V c main_arg1)) (V c main_arg5) (V c main_arg6) (((cfg0.win 4).blk t).view.emb j)
  obtain ⟨-, -, -, -, -, -, -, -, e8⟩ := idx_facts0 t
  refine affine_congr _ _ _ _ _ _ ?_ fun p p' hp hp' k => ?_
  · show (j 1).val = win0_4.index t (1 : Fin 2) * 64 + 1 * (j 1).val
    omega
  · have hp'' : p'.val = win0_4.index t (0 : Fin 2) * 5000 + p.val := by
      rw [hp', hp]
      show win0_4.index t (0 : Fin 2) * 5000 + 1 * (j 0).val = _
      show _ = win0_4.index t (0 : Fin 2) * 5000 + (j 0).val
      omega
    simp only [masked]
    rw [xblk0_apply V c t p k p' hp'', ublk0_apply V c t p k p' hp'']

/-- An index of the output is in point t's block iff each coordinate is in the block's range on its axis. -/
theorem mem_blk0 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0).slice (win0_4.rect t)).set ↔ _
  rw [View.set_slice_whole, Rect.mem_set_unit]
  exact Iff.rfl

/-- The 20 row blocks cover the output: row r is in block r / 5000. -/
theorem cover0 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The output array after the region: the dense layer of the dropped input, from the arrays as the region finds them. -/
theorem final0 (c : Dev nD) :
    (dat0 (F := Ideal) V c).arrAt 4 cfg0.N = affine (masked (V c main_arg0) (V c main_arg1)) (V c main_arg5) (V c main_arg6) :=
  (dat0 (F := Ideal) V c).arrAt_eq_of_cover 4 _ (fun t _ => flushed0_eq V c t) cover0

end Cert.KernelIdeal.LayerOne

end
-- ==== Proof.LayerTwoRegion.lean ====
/-
  Layer two's region: what its output array holds after the run.

  The region tiles the 100000 rows into 20 blocks of 5000; at point t it reads rows 5000 t … 5000 t + 4999 of its input
  h, all of W and b, and writes the same rows of the output. Its body's value on a block is the dense layer of the block
  clipped below at zero (`pay1_eq`), a layer's row reads the same row of its input only, and the 20 row blocks cover
  the array; so the output array is the dense layer of the whole clipped input, whatever contents the region is entered
  with.
-/
import proofs.«116018_j24550033064030_1_alg».proof.Proof.Gen.KernelIdeal.Frame
import proofs.«116018_j24550033064030_1_alg».proof.Proof.DenseLayers
import Idealize.ShloMosaic.Lib.Pipeline.Value

set_option maxRecDepth 16384

noncomputable section

namespace Cert.KernelIdeal.LayerTwo

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Gcn Cert.PallasLinear

variable (V : (c : Dev nD) → (b : Ref sig .tc) → Buf (Elt Ideal) ((c : Thread nD τ).loc b))

theorem off2_zero : (![0, 0] : Fin 2 → Nat) = fun _ => 0 := funext fun a => by fin_cases a <;> rfl
theorem off1_zero : (![0] : Fin 1 → Nat) = fun _ => 0 := funext fun a => by fin_cases a; rfl

/-- The body's stored value is the dense layer of its clipped block. -/
theorem pay1_eq (h : Vec Ideal S5000x64 .f32) (w : Vec Ideal S64x32 .f32) (b : Vec Ideal S32 .f32) :
    k1_pay1 h w b = affine (clip0 h) w b := by
  unfold k1_pay1
  exact clipBody_eq Facts₀.dot_S5000x64_S64x32_S5000x32_1_0_0_1_n_n_wf h w b _ _ _ _

/-- The printed index maps over the grid: the row blocks of the input and the output move together; the weights and
    the bias stay at their one block. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) ≤ 19 ∧ win1_3.index t (1 : Fin 2) = 0 :=
  (by decide +kernel : ∀ t : Fin grid1.N, _)

/-- Every row block is some point's. -/
theorem idx_onto1 : ∀ q0 : Fin 20, ∃ t : Fin cfg1.N, win1_3.index t = ![q0.val, 0] :=
  (by decide +kernel : ∀ q0 : Fin 20, ∃ t : Fin grid1.N, win1_3.index t = ![q0.val, 0])

/-- Row p of the input's block at point t is row (block index) · 5000 + p of the input. -/
theorem hblk1_apply (c : Dev nD) (t : Fin cfg1.N) (p : Fin 5000) (k : Fin 64) (p' : Fin 100000)
    (hp : p'.val = win1_3.index t (0 : Fin 2) * 5000 + p.val) :
    iblk1 V c 0 t (ix2 p k) = V c main_v13 (ix2 p' k) := by
  show V c main_v13 (((cfg1.win 0).blk t).view.emb (ix2 p k)) = _
  refine congrArg (V c main_v13) ?_
  obtain ⟨e0, e1, -⟩ := idx_facts1 t
  funext a; apply Fin.ext
  match a with
  | ⟨0, _⟩ => show win1_0.index t (0 : Fin 2) * 5000 + 1 * p.val = p'.val; omega
  | ⟨1, _⟩ => show win1_0.index t (1 : Fin 2) * 64 + 1 * k.val = k.val; omega

/-- The weights' block is the whole weight matrix, at every point. -/
theorem wblk1_eq (c : Dev nD) (t : Fin cfg1.N) : iblk1 V c 1 t = V c main_arg7 := by
  funext y
  show V c main_arg7 (((cfg1.win 1).blk t).view.emb y) = _
  refine congrArg (V c main_arg7) ?_
  obtain ⟨-, -, e2, e3, -⟩ := idx_facts1 t
  funext a; apply Fin.ext
  match a with
  | ⟨0, _⟩ => show win1_1.index t (0 : Fin 2) * 64 + 1 * (y 0).val = (y 0).val; omega
  | ⟨1, _⟩ => show win1_1.index t (1 : Fin 2) * 32 + 1 * (y 1).val = (y 1).val; omega

/-- The bias block is the whole bias, at every point. -/
theorem bblk1_eq (c : Dev nD) (t : Fin cfg1.N) : iblk1 V c 2 t = V c main_arg8 := by
  funext y
  show V c main_arg8 (((cfg1.win 2).blk t).view.emb y) = _
  refine congrArg (V c main_arg8) ?_
  obtain ⟨-, -, -, -, e4, -⟩ := idx_facts1 t
  funext a; apply Fin.ext
  match a with
  | ⟨0, _⟩ => show win1_2.index t (0 : Fin 1) * 32 + 1 * (y 0).val = (y 0).val; omega

/-- What point t writes back is block t of the dense layer of the whole clipped input. -/
theorem flushed1_eq (c : Dev nD) (t : Fin cfg1.N) :
    (dat1 (F := Ideal) V c).flushed 3 t
      = ((cfg1.win 3).blk t).view.read (Elt Ideal) (affine (clip0 (V c main_v13)) (V c main_arg7) (V c main_arg8)) := by
  show (cfg1.win 3).cut (grid1.coords t) ((dat1 V c).after 3 t) = _
  rw [after1_3]
  unfold out1_3
  rw [View.canon_unit_zero off2_zero]
  simp only [View.ld_unit_zero (S := S5000x64) off2_zero, View.ld_unit_zero (S := S64x32) off2_zero, View.ld_unit_zero (S := S32) off1_zero]
  rw [pay1_eq, wblk1_eq, bblk1_eq]
  funext j
  show affine (clip0 (iblk1 V c 0 t)) (V c main_arg7) (V c main_arg8) ((win1 3).xinj (grid1.coords t) j)
      = affine (clip0 (V c main_v13)) (V c main_arg7) (V c main_arg8) (((cfg1.win 3).blk t).view.emb j)
  obtain ⟨-, -, -, -, -, -, e6⟩ := idx_facts1 t
  refine affine_congr _ _ _ _ _ _ ?_ fun p p' hp hp' k => ?_
  · show (j 1).val = win1_3.index t (1 : Fin 2) * 32 + 1 * (j 1).val
    omega
  · have hp'' : p'.val = win1_3.index t (0 : Fin 2) * 5000 + p.val := by
      rw [hp', hp]
      show win1_3.index t (0 : Fin 2) * 5000 + 1 * (j 0).val = _
      show _ = win1_3.index t (0 : Fin 2) * 5000 + (j 0).val
      omega
    simp only [clip0]
    rw [hblk1_apply V c t p k p' hp'']

/-- An index of the output is in point t's block iff each coordinate is in the block's range on its axis. -/
theorem mem_blk1 (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v14).slice (win1_3.rect t)).set ↔ _
  rw [View.set_slice_whole, Rect.mem_set_unit]
  exact Iff.rfl

/-- The 20 row blocks cover the output: row r is in block r / 5000. -/
theorem cover1 (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The output array after the region: the dense layer of the clipped input, from the arrays as the region finds them. -/
theorem final1 (c : Dev nD) :
    (dat1 (F := Ideal) V c).arrAt 3 cfg1.N = affine (clip0 (V c main_v13)) (V c main_arg7) (V c main_arg8) :=
  (dat1 (F := Ideal) V c).arrAt_eq_of_cover 3 _ (fun t _ => flushed1_eq V c t) cover1

end Cert.KernelIdeal.LayerTwo

end
-- ==== Proof.KernelBoundaries.lean ====
/-
  The kernel program's result, read back to the arguments.

  The program is: region one (layer one, tiled), a stretch of host operations (the edge sum), region two (layer two,
  tiled), a second stretch of host operations (the edge sum again). The buffer contents at the five boundaries are
  W0 … W4. Read backwards: the result at the last boundary is the edge sum of region two's output; region two's output
  is layer two of its input as the region finds it, which the first stretch left as the edge sum of region one's output;
  region one's output is layer one of the arguments. No stretch and no region writes an argument, so every argument
  read at a later boundary is the launch contents. Together: the result is `network` of the arguments.
-/
import proofs.«116018_j24550033064030_1_alg».proof.Proof.Gen.KernelIdeal.Frame
import proofs.«116018_j24550033064030_1_alg».proof.Proof.Network
import proofs.«116018_j24550033064030_1_alg».proof.Proof.LayerOneRegion
import proofs.«116018_j24550033064030_1_alg».proof.Proof.LayerTwoRegion
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.Gcn Cert.PallasLinear

variable (m : (ℓ : Loc nD τ sig) → Buf (Elt Ideal) ℓ) (ρ : Dev nD → PrngReg)

/-! ## The arguments at the boundaries -/

/-- After region one an argument it does not write is as launched. -/
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg7 (c : Dev nD) : W1 m ρ c (Proc.devRef .tc main_arg7) = m ((c : Thread nD τ).loc main_arg7) := W1_of_ne m ρ c main_arg7 (by decide)
theorem W1_arg8 (c : Dev nD) : W1 m ρ c (Proc.devRef .tc main_arg8) = m ((c : Thread nD τ).loc main_arg8) := W1_of_ne m ρ c main_arg8 (by decide)

/-- The first stretch of host operations writes neither W₁ nor b₁. -/
theorem W2_arg7 (c : Dev nD) : W2 m ρ c (Proc.devRef .tc main_arg7) = m ((c : Thread nD τ).loc main_arg7) := by
  refine Eq.trans ?_ (W1_arg7 m ρ c)
  show StableHlo.after hostOps1 (W1 m ρ c) (Proc.devRef .tc main_arg7) = _
  after_results
theorem W2_arg8 (c : Dev nD) : W2 m ρ c (Proc.devRef .tc main_arg8) = m ((c : Thread nD τ).loc main_arg8) := by
  refine Eq.trans ?_ (W1_arg8 m ρ c)
  show StableHlo.after hostOps1 (W1 m ρ c) (Proc.devRef .tc main_arg8) = _
  after_results

/-- The second stretch writes no argument either, so the graph's three arrays are as launched when it reads them. -/
theorem W3_arg2 (c : Dev nD) : W3 m ρ c (Proc.devRef .tc main_arg2) = m ((c : Thread nD τ).loc main_arg2) := by
  refine Eq.trans (Eq.symm ?_) (W4_main_arg2 m ρ c)
  show StableHlo.after hostOps2 (W3 m ρ c) (Proc.devRef .tc main_arg2) = _
  after_results
theorem W3_arg3 (c : Dev nD) : W3 m ρ c (Proc.devRef .tc main_arg3) = m ((c : Thread nD τ).loc main_arg3) := by
  refine Eq.trans (Eq.symm ?_) (W4_main_arg3 m ρ c)
  show StableHlo.after hostOps2 (W3 m ρ c) (Proc.devRef .tc main_arg3) = _
  after_results
theorem W3_arg4 (c : Dev nD) : W3 m ρ c (Proc.devRef .tc main_arg4) = m ((c : Thread nD τ).loc main_arg4) := by
  refine Eq.trans (Eq.symm ?_) (W4_main_arg4 m ρ c)
  show StableHlo.after hostOps2 (W3 m ρ c) (Proc.devRef .tc main_arg4) = _
  after_results

/-! ## The two stretches of host operations: the edge sum -/

/-- The first stretch leaves, in region two's input buffer, the edge sum of region one's output. -/
theorem W2_hidden (c : Dev nD) :
    W2 m ρ c (Proc.devRef .tc main_v13)
      = edgeSum 100000#32 scatter_S100000x64_S3200000x1_S3200000x64_1_0_0_1 gather_S100000x64_S3200000x1_S3200000x64_1_0_n_n_0_1_164
          Facts₀.bcast_S_S100000x64 Facts₀.bcast_S_S3200000 Facts₀.bcast_S3200000_S3200000x1_0 Facts₀.bcast_S3200000x1_S3200000x64_0_1
          (W1 m ρ c (Proc.devRef .tc main_arg2)) (W1 m ρ c (Proc.devRef .tc main_arg3)) (W1 m ρ c (Proc.devRef .tc main_arg4))
          (W1 m ρ c (Proc.devRef .tc main_v0)) := by
  show StableHlo.after hostOps1 (W1 m ρ c) (Proc.devRef .tc main_v13) = _
  after_results
  rfl

/-- The second stretch leaves, in the result's buffer, the edge sum of region two's output. -/
theorem W4_result (c : Dev nD) :
    W4 m ρ c (Proc.devRef .tc main_v27)
      = edgeSum 100000#32 scatter_S100000x32_S3200000x1_S3200000x32_1_0_0_1 gather_S100000x32_S3200000x1_S3200000x32_1_0_n_n_0_1_132
          Facts₀.bcast_S_S100000x32 Facts₀.bcast_S_S3200000 Facts₀.bcast_S3200000_S3200000x1_0 Facts₀.bcast_S3200000x1_S3200000x32_0_1
          (W3 m ρ c (Proc.devRef .tc main_arg2)) (W3 m ρ c (Proc.devRef .tc main_arg3)) (W3 m ρ c (Proc.devRef .tc main_arg4))
          (W3 m ρ c (Proc.devRef .tc main_v14)) := by
  show StableHlo.after hostOps2 (W3 m ρ c) (Proc.devRef .tc main_v27) = _
  after_results
  rfl

end Cert.KernelIdeal.Boundaries

end
-- ==== Proof.KernelValue.lean ====
/-
  The kernel program's result is the network of its arguments.

  Reading the boundaries backwards (`Boundaries`): the result is the edge sum, over the graph as launched, of region
  two's output; that output is layer two of the region's input (`LayerTwo.final1`), which is the edge sum of region
  one's output, with W₁ and b₁ as launched; and region one's output is layer one of the arguments (`LayerOne.final0`).
-/
import proofs.«116018_j24550033064030_1_alg».proof.Proof.KernelBoundaries

set_option maxRecDepth 16384

noncomputable section

namespace Cert.KernelIdeal.Boundaries

open Idealize.ShloMosaic Idealize.ShloMosaic.TcCoe Idealize.SL.Sem
open Cert.KernelIdeal Cert.KernelIdeal.Gen Cert.Gcn Cert.PallasLinear

variable (m : (ℓ : Loc nD τ sig) → Buf (Elt Ideal) ℓ) (ρ : Dev nD → PrngReg)

/-- Region two's input, as the region finds it: the edge sum of layer one of the arguments. -/
theorem hidden_eq (c : Dev nD) :
    V2 m ρ c main_v13
      = edgeSum 100000#32 scatter_S100000x64_S3200000x1_S3200000x64_1_0_0_1 gather_S100000x64_S3200000x1_S3200000x64_1_0_n_n_0_1_164
          Facts₀.bcast_S_S100000x64 Facts₀.bcast_S_S3200000 Facts₀.bcast_S3200000_S3200000x1_0 Facts₀.bcast_S3200000x1_S3200000x64_0_1
          (m ((c : Thread nD τ).loc main_arg2)) (m ((c : Thread nD τ).loc main_arg3)) (m ((c : Thread nD τ).loc main_arg4))
          (affine (masked (m ((c : Thread nD τ).loc main_arg0)) (m ((c : Thread nD τ).loc main_arg1)))
            (m ((c : Thread nD τ).loc main_arg5)) (m ((c : Thread nD τ).loc main_arg6))) := by
  refine (W2_hidden m ρ c).trans ?_
  rw [W1_arg2, W1_arg3, W1_arg4]
  refine congrArg (edgeSum 100000#32 scatter_S100000x64_S3200000x1_S3200000x64_1_0_0_1 gather_S100000x64_S3200000x1_S3200000x64_1_0_n_n_0_1_164
    Facts₀.bcast_S_S100000x64 Facts₀.bcast_S_S3200000 Facts₀.bcast_S3200000_S3200000x1_0 Facts₀.bcast_S3200000x1_S3200000x64_0_1
    (m ((c : Thread nD τ).loc main_arg2)) (m ((c : Thread nD τ).loc main_arg3)) (m ((c : Thread nD τ).loc main_arg4))) ?_
  refine (W1_arr m ρ c 4).trans ?_
  exact LayerOne.final0 (V0 m ρ) c

/-- The result's buffer at the last boundary is the network of the arguments as launched. -/
theorem result_eq (c : Dev nD) :
    W4 m ρ c (Proc.devRef .tc main_v27)
      = network scatter_S100000x64_S3200000x1_S3200000x64_1_0_0_1 gather_S100000x64_S3200000x1_S3200000x64_1_0_n_n_0_1_164
          scatter_S100000x32_S3200000x1_S3200000x32_1_0_0_1 gather_S100000x32_S3200000x1_S3200000x32_1_0_n_n_0_1_132
          Facts₀.bcast_S_S100000x64 Facts₀.bcast_S_S100000x32 Facts₀.bcast_S_S3200000 Facts₀.bcast_S3200000_S3200000x1_0
          Facts₀.bcast_S3200000x1_S3200000x64_0_1 Facts₀.bcast_S3200000x1_S3200000x32_0_1
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_result m ρ c).trans ?_
  rw [W3_arg2, W3_arg3, W3_arg4]
  unfold network
  refine congrArg (edgeSum 100000#32 scatter_S100000x32_S3200000x1_S3200000x32_1_0_0_1 gather_S100000x32_S3200000x1_S3200000x32_1_0_n_n_0_1_132
    Facts₀.bcast_S_S100000x32 Facts₀.bcast_S_S3200000 Facts₀.bcast_S3200000_S3200000x1_0 Facts₀.bcast_S3200000x1_S3200000x32_0_1
    (m ((c : Thread nD τ).loc main_arg2)) (m ((c : Thread nD τ).loc main_arg3)) (m ((c : Thread nD τ).loc main_arg4))) ?_
  refine (W3_arr m ρ c 3).trans ?_
  refine (LayerTwo.final1 (V2 m ρ) c).trans ?_
  have e7 : V2 m ρ c main_arg7 = m ((c : Thread nD τ).loc main_arg7) := W2_arg7 m ρ c
  have e8 : V2 m ρ c main_arg8 = m ((c : Thread nD τ).loc main_arg8) := W2_arg8 m ρ c
  rw [e7, e8, hidden_eq m ρ c]

end Cert.KernelIdeal.Boundaries

end
-- ==== Proof.RefValue.lean ====
/-
  The reference program's result is the network of its arguments.

  The reference is one line of host operations: drop and rescale the input, contract with W₀ and add b₀, the edge sum,
  clip at zero, contract with W₁ and add b₁, the edge sum again. Its two dense stretches are the arrays `affine` of
  the dropped, resp. clipped, input (the host forms of the two layers), and its two edge sums are the named function
  applied to them; so the composed term is `network` of the arguments, by congruence from the inside out.
-/
import proofs.«116018_j24550033064030_1_alg».proof.Proof.Gen.ReferenceIdeal.Run
import proofs.«116018_j24550033064030_1_alg».proof.Proof.Network

noncomputable section

namespace Cert.ReferenceIdeal.Composed

open Idealize.ShloMosaic Idealize.ShloMosaic.TcCoe Idealize.SL.Sem
open Cert.ReferenceIdeal Cert.ReferenceIdeal.Gen Cert.Gcn Cert.PallasLinear

/-- The reference's composed term, its two edge sums named, is the network. -/
theorem term_eq (a0 a1 : FVec Ideal S100000x128 .f32) (a2 : FVec Ideal S3200000 .f32) (a3 a4 : IVec S3200000 32)
    (a5 : FVec Ideal S128x64 .f32) (a6 : FVec Ideal S64 .f32) (a7 : FVec Ideal S64x32 .f32) (a8 : FVec Ideal S32 .f32) :
    edgeSum 100000#32 scatter_S100000x32_S3200000x1_S3200000x32_1_0_0_1 gather_S100000x32_S3200000x1_S3200000x32_1_0_n_n_0_1_132
        Facts₀.bcast_S_S100000x32 Facts₀.bcast_S_S3200000 Facts₀.bcast_S3200000_S3200000x1_0 Facts₀.bcast_S3200000x1_S3200000x32_0_1 a2 a3 a4
        (addf (Host.dotGeneral dot_S100000x64_S64x32_S100000x32_1_0_0_1_n_n none
            (maximumf
              (edgeSum 100000#32 scatter_S100000x64_S3200000x1_S3200000x64_1_0_0_1 gather_S100000x64_S3200000x1_S3200000x64_1_0_n_n_0_1_164
                Facts₀.bcast_S_S100000x64 Facts₀.bcast_S_S3200000 Facts₀.bcast_S3200000_S3200000x1_0 Facts₀.bcast_S3200000x1_S3200000x64_0_1 a2 a3 a4
                (addf (Host.dotGeneral dot_S100000x128_S128x64_S100000x64_1_0_0_1_n_n none
                    (mulf a0 (mulf (uitofp .f32 (cmpf .oge a1 (broadcastInDim S100000x128 ![] Facts₀.bcast_S_S100000x128 (constant (F := Ideal) S_ .f32 0x3F000000#32))))
                      (broadcastInDim S100000x128 ![] Facts₀.bcast_S_S100000x128 (constant (F := Ideal) S_ .f32 0x40000000#32)))) a5)
                  (broadcastInDim S100000x64 ![0, 1] Facts₀.bcast_S1x64_S100000x64_0_1 (broadcastInDim S1x64 ![1] Facts₀.bcast_S64_S1x64_1 a6))))
              (broadcastInDim S100000x64 ![] Facts₀.bcast_S_S100000x64 (constant (F := Ideal) S_ .f32 0x00000000#32))) a7)
          (broadcastInDim S100000x32 ![0, 1] Facts₀.bcast_S1x32_S100000x32_0_1 (broadcastInDim S1x32 ![1] Facts₀.bcast_S32_S1x32_1 a8)))
      = network scatter_S100000x64_S3200000x1_S3200000x64_1_0_0_1 gather_S100000x64_S3200000x1_S3200000x64_1_0_n_n_0_1_164
          scatter_S100000x32_S3200000x1_S3200000x32_1_0_0_1 gather_S100000x32_S3200000x1_S3200000x32_1_0_n_n_0_1_132
          Facts₀.bcast_S_S100000x64 Facts₀.bcast_S_S100000x32 Facts₀.bcast_S_S3200000 Facts₀.bcast_S3200000_S3200000x1_0
          Facts₀.bcast_S3200000x1_S3200000x64_0_1 Facts₀.bcast_S3200000x1_S3200000x32_0_1 a0 a1 a2 a3 a4 a5 a6 a7 a8 := by
  unfold network
  refine congrArg (edgeSum 100000#32 scatter_S100000x32_S3200000x1_S3200000x32_1_0_0_1 gather_S100000x32_S3200000x1_S3200000x32_1_0_n_n_0_1_132
    Facts₀.bcast_S_S100000x32 Facts₀.bcast_S_S3200000 Facts₀.bcast_S3200000_S3200000x1_0 Facts₀.bcast_S3200000x1_S3200000x32_0_1 a2 a3 a4) ?_
  refine (clipHost_eq Facts₀.dot_S100000x64_S64x32_S100000x32_1_0_0_1_n_n_wf _ a7 a8 Facts₀.bcast_S_S100000x64 Facts₀.bcast_S32_S1x32_1 Facts₀.bcast_S1x32_S100000x32_0_1).trans ?_
  refine congrArg (fun h => affine (clip0 h) a7 a8) ?_
  refine congrArg (edgeSum 100000#32 scatter_S100000x64_S3200000x1_S3200000x64_1_0_0_1 gather_S100000x64_S3200000x1_S3200000x64_1_0_n_n_0_1_164
    Facts₀.bcast_S_S100000x64 Facts₀.bcast_S_S3200000 Facts₀.bcast_S3200000_S3200000x1_0 Facts₀.bcast_S3200000x1_S3200000x64_0_1 a2 a3 a4) ?_
  exact dropHost_eq Facts₀.dot_S100000x128_S128x64_S100000x64_1_0_0_1_n_n_wf a1 a0 a5 a6 Facts₀.bcast_S_S100000x128 Facts₀.bcast_S64_S1x64_1 Facts₀.bcast_S1x64_S100000x64_0_1

end Cert.ReferenceIdeal.Composed

end
-- ==== Proof.lean ====
/-
  Two rounds of graph convolution — a dense layer, then a sum over incoming edges — computed by two tiled kernels
  among host operations, against the same network written with plain array operations; the claim is
  proofs.«116018_j24550033064030_1_alg».proof.Defs's `Cert.Claim`.

  On the extended reals both programs compute one function of their nine arguments, `Cert.Gcn.network`:

      out = A · ( max (A · ((x dropped by u) W₀ + b₀), 0) W₁ + b₁ ),      (A · h)[n] = ∑ over edges e into n of val e · h[col e].

  * The kernel's two regions each tile the 100000 rows into 20 blocks; a row of x W + b reads the same row of x only, so
    the blocks a region writes are the blocks of the whole-array layer, and they cover the array (LayerOneRegion,
    LayerTwoRegion). Rounding an operand to a narrower format is the identity on the extended reals, a product into a zero
    accumulator is the plain contraction, and a one-bit comparison widened and read signed is the bit read unsigned, so
    each body is the layer the host spells with a contraction and two broadcasts of the bias (DenseLayers).
  * The edge sum is the same line of host operations in both programs; it is carried as one named function and never
    opened (LibEdgeSum). No law of arithmetic beyond congruence is used, so the finiteness of the inputs is not needed.
  * The kernel's run names its result at the last of the five boundaries between regions and host stretches (KernelRun);
    reading the boundaries backwards gives the network of the arguments as launched (KernelBoundaries, KernelValue).
    The reference's run is its generated composed term, which is the network by congruence (RefValue).

  The three frames are the generated ones; the idealization rewrote nothing, so `preserves` is trivial.
-/
import proofs.«116018_j24550033064030_1_alg».proof.Defs
import proofs.«116018_j24550033064030_1_alg».proof.Proof.Gen.Kernel
import proofs.«116018_j24550033064030_1_alg».proof.Proof.Gen.Kernel.Skeleton
import proofs.«116018_j24550033064030_1_alg».proof.Proof.Gen.Kernel.Launch
import proofs.«116018_j24550033064030_1_alg».proof.Proof.Gen.Kernel.Points
import proofs.«116018_j24550033064030_1_alg».proof.Proof.Gen.Kernel.Frame
import proofs.«116018_j24550033064030_1_alg».proof.Proof.Gen.KernelIdeal
import proofs.«116018_j24550033064030_1_alg».proof.Proof.Gen.KernelIdeal.Skeleton
import proofs.«116018_j24550033064030_1_alg».proof.Proof.Gen.KernelIdeal.Launch
import proofs.«116018_j24550033064030_1_alg».proof.Proof.Gen.KernelIdeal.Points
import proofs.«116018_j24550033064030_1_alg».proof.Proof.Gen.KernelIdeal.Frame
import proofs.«116018_j24550033064030_1_alg».proof.Proof.Gen.ReferenceIdeal
import proofs.«116018_j24550033064030_1_alg».proof.Proof.Gen.ReferenceIdeal.Run
import proofs.«116018_j24550033064030_1_alg».proof.Proof.Gen.Pre_finite_inputs
import proofs.«116018_j24550033064030_1_alg».proof.Proof.KernelRun
import proofs.«116018_j24550033064030_1_alg».proof.Proof.KernelValue
import proofs.«116018_j24550033064030_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Boundaries.result_eq m ρ c), (h c).2⟩)
      (Cert.KernelIdeal.ResultRun.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact Cert.ReferenceIdeal.Composed.term_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
